-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S1024x2048 : Shape := ⟨2, ![1024, 2048]⟩
abbrev S2048 : Shape := ⟨1, ![2048]⟩
abbrev S1x2048 : Shape := ⟨2, ![1, 2048]⟩
abbrev S8192x2048 : Shape := ⟨2, ![8192, 2048]⟩
abbrev S512x1024 : Shape := ⟨2, ![512, 1024]⟩
abbrev S512x2048 : Shape := ⟨2, ![512, 2048]⟩
abbrev S4x2048x2048 : Shape := ⟨3, ![4, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 24
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1024x1024, .f32⟩
  | .hbm, ⟨12, _⟩ => ⟨S1024x1024, .f32⟩
  | .hbm, ⟨13, _⟩ => ⟨S1024x2048, .f32⟩
  | .hbm, ⟨14, _⟩ => ⟨S1024x2048, .bf16⟩
  | .hbm, ⟨15, _⟩ => ⟨S2048, .f32⟩
  | .hbm, ⟨16, _⟩ => ⟨S1x2048, .f32⟩
  | .hbm, ⟨17, _⟩ => ⟨S8192x2048, .bf16⟩
  | .hbm, ⟨18, _⟩ => ⟨S8192x1024, .bf16⟩
  | .hbm, ⟨19, _⟩ => ⟨S8192x1024, .bf16⟩
  | .hbm, ⟨20, _⟩ => ⟨S4x2048x1024, .bf16⟩
  | .hbm, ⟨21, _⟩ => ⟨S4x2048x1024, .bf16⟩
  | .hbm, ⟨22, _⟩ => ⟨S4x2048x1024, .f32⟩
  | .hbm, ⟨23, _⟩ => ⟨S4x2048x2048, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | .local _ .vmem, ⟨6, _⟩ => ⟨S1x256x1024, .f32⟩
  | .local _ .vmem, ⟨7, _⟩ => ⟨S1x256x1024, .f32⟩
  | .local _ .vmem, ⟨8, _⟩ => ⟨S1024x1024, .bf16⟩
  | .local _ .vmem, ⟨9, _⟩ => ⟨S1x1024, .f32⟩
  | .local _ .vmem, ⟨10, _⟩ => ⟨S1x2048x1024, .bf16⟩
  | .local _ .vmem, ⟨11, _⟩ => ⟨S1x2048x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x256x1024, .f32⟩
  | .local _ .vmem, ⟨15, _⟩ => ⟨S1x256x1024, .f32⟩
  | .local _ .vmem, ⟨16, _⟩ => ⟨S1x256x2048, .f32⟩
  | .local _ .vmem, ⟨17, _⟩ => ⟨S1x256x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S4x2048x1024_S8192x1024 : S4x2048x1024.ShapeCasts S8192x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  concatenates_S1024x1024_S1024x1024_S1024x2048_d1 : Shape.Concatenates [S1024x1024, S1024x1024] S1024x2048 1
  concatenates_S1024_S1024_S2048_d0 : Shape.Concatenates [S1024, S1024] S2048 0
  shapeCasts_S2048_S1x2048 : S2048.ShapeCasts S1x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  packedbf16_S512x2048_S512x2048_0_0 : (Rect.unit (s := S512x2048) ![0, 0] S512x2048.size inb_S512x2048_S512x2048_0_0).PackedRows (EltTy.packing .bf16)
  slices_S8192x2048_S8192x1024_0_0 : S8192x2048.Slices ![0, 0] S8192x1024
  slices_S8192x2048_S8192x1024_0_1024 : S8192x2048.Slices ![0, 1024] S8192x1024
  shapeCasts_S8192x1024_S4x2048x1024 : S8192x1024.ShapeCasts S4x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x1024_S1x256x1024 : S256x1024.ShapeCasts S1x256x1024
  dot_S512x1024_S1024x2048_S512x2048_1_0_0_1_n_n_wf : DotDims.WF S512x1024 S1024x2048 S512x2048 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .bf16 = 32 ∨ (Rect.block (s := S8192x2048) S512x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .f32 = 32 ∨ (Rect.block (s := S4x2048x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S4x2048x1024.size a
  hwx1_3 : ∀ i : grid1.Coords, EltTy.bits .bf16 = 32 ∨ (Rect.block (s := S4x2048x1024) S1x2048x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x1024.size a ≤ S4x2048x1024.size a
  hwx1_4 : ∀ i : grid1.Coords, EltTy.bits .bf16 = 32 ∨ (Rect.block (s := S4x2048x1024) S1x2048x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S4x2048x1024.size a
  hwx1_5 : ∀ i : grid1.Coords, EltTy.bits .f32 = 32 ∨ (Rect.block (s := S4x2048x1024) S1x256x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x2048.size a ≤ S4x2048x2048.size a
  hwx1_6 : ∀ i : grid1.Coords, EltTy.bits .f32 = 32 ∨ (Rect.block (s := S4x2048x2048) S1x256x2048.size (cc1_transform_6 i) (hinb1_6 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x2048x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x2048x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15_0) S1x256x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v15_1) S1x256x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KernelRun.lean ====
/-
  The idealized kernel program's run with its two results named.

  @main is four segments: a stretch of host operations, the key/value projection region, a second stretch, the attention region.
  The buffer contents at the last boundary are a fold through those segments from the launch memory; every weakly fair execution
  terminates in a state whose unscoped buffers hold exactly that fold. Read at the two result buffers this names the results;
  read at the seven argument buffers the fold walks back to the launch memory.
-/
import proofs.«180527_j26474178412982_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the mixed rows' buffer and the attention weights'
    buffer at the last boundary's contents and the arguments as launched. -/
theorem run_named : θ_run defs (onTc (τ := τ) (main (F := F))) ⟨m, fun _ => 0, ρ⟩ (fun r => ∀ c : Dev nD,
      r.2.mem ((c.tc : Thread nD τ).loc main_v15_0) = W4 m ρ c (Proc.devRef .tc main_v15_0)
      ∧ r.2.mem ((c.tc : Thread nD τ).loc main_v15_1) = W4 m ρ c (Proc.devRef .tc main_v15_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v15_0 (by decide)),
       h c _ (mem_uc main_v15_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Named

end
-- ==== Proof.AttnSpec.lean ====
/-
  Scaled dot-product self-attention over the extended reals, entry by entry.

  From a batch of 4 sequences of 2048 rows of 1024 features, three linear layers (weights stored output-feature-major, as
  `W[h, i]`, plus a bias) give queries, keys and values. The score of query row `s` against key row `t` is their inner product
  times a scale; the attention weights of row `s` are the softmax of its 2048 scores — each score less the row's supremum,
  exponentiated, divided by the row's sum of exponentials — and the mixed row is the weights' combination of the value rows.
  Both programs compute exactly these terms in exactly this grouping, so nothing here needs finiteness: the definitions make
  sense on all of the extended reals.
-/
import Idealize.ShloMosaic.PureOps.Ideal
import Idealize.ShloMosaic.Lib.ValueIdx

noncomputable section

open scoped BigOperators

namespace Attn

open Idealize.ShloMosaic Idealize.ShloMosaic.ValueIdx

/-- A linear layer at batch `n`, row `s`, output feature `h`: `∑ i, x[n, s, i] · W[h, i] + b[h]`. -/
def lin (x : (⟨3, ![4, 2048, 1024]⟩ : Shape).Idx → EReal) (W : (⟨2, ![1024, 1024]⟩ : Shape).Idx → EReal)
    (b : (⟨1, ![1024]⟩ : Shape).Idx → EReal) (n : Fin 4) (s : Fin 2048) (h : Fin 1024) : EReal :=
  (∑ i : Fin 1024, x (ix3 n s i) * W (ix2 h i)) + b (ix1 h)

/-- The scaled score of a query row against a key row: their inner product times the scale. -/
def score (sc : EReal) (q k : Fin 1024 → EReal) : EReal := (∑ h : Fin 1024, q h * k h) * sc

/-- The softmax of a row of 2048 scores at position `t`. -/
def softmax (z : Fin 2048 → EReal) (t : Fin 2048) : EReal :=
  Ideal.div (Ideal.exp (z t - (Finset.univ : Finset (Fin 2048)).sup z))
    (∑ u : Fin 2048, Ideal.exp (z u - (Finset.univ : Finset (Fin 2048)).sup z))

/-- The attention weight of key row `t` for query row `s` of batch `n`. -/
def weights (sc : EReal) (Q K : Fin 4 → Fin 2048 → Fin 1024 → EReal) (n : Fin 4) (s t : Fin 2048) : EReal :=
  softmax (fun u => score sc (Q n s) (K n u)) t

/-- Feature `h` of the mixed row `s` of batch `n`: the weights' combination of the value rows. -/
def mixed (sc : EReal) (Q K V : Fin 4 → Fin 2048 → Fin 1024 → EReal) (n : Fin 4) (s : Fin 2048) (h : Fin 1024) : EReal :=
  ∑ t : Fin 2048, weights sc Q K n s t * V n t h

/-- The array of attention weights, from the input and the query and key layers' parameters. -/
def weightsArr (sc : EReal) (x : (⟨3, ![4, 2048, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal) :
    (⟨3, ![4, 2048, 2048]⟩ : Shape).Idx → EReal :=
  fun i => weights sc (lin x Wq bq) (lin x Wk bk) (i 0) (i 1) (i 2)

/-- The array of mixed rows, from the input and the three layers' parameters. -/
def mixedArr (sc : EReal) (x : (⟨3, ![4, 2048, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal) :
    (⟨3, ![4, 2048, 1024]⟩ : Shape).Idx → EReal :=
  fun i => mixed sc (lin x Wq bq) (lin x Wk bk) (lin x Wv bv) (i 0) (i 1) (i 2)

/-- The scale as the kernel holds it: the f32 word of 2⁻⁵. -/
def scaleK : EReal := Ideal.ofBits .f32 0x3D000000#32

/-- The scale as the reference computes it: one over the square root of 1024. -/
def scaleR : EReal := Ideal.div (Ideal.ofBits .f32 0x3F800000#32) (Ideal.sqrt (Ideal.ofBits .f32 0x44800000#32))

end Attn

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«180527_j26474178412982_2_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«180527_j26474178412982_2_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.Payloads.lean ====
/-
  The kernel bodies' arithmetic read at one entry, over the extended reals.

  The key/value projection body holds at (r, c) the inner product of row r of its input block with column c of the fused weight
  block, plus the bias entry of column c. The attention body's weight matrix holds at (s, t) the softmax, along row s, of the
  scaled scores of the query row s — itself a linear layer of the input block's row s — against the key block's rows; its mixed
  block holds at (s, h) the weights' combination of the value block's rows.
-/
import proofs.«180527_j26474178412982_2_alg».proof.Proof.Gen.KernelIdeal.Skeleton
import proofs.«180527_j26474178412982_2_alg».proof.Proof.AttnSpec
import proofs.«180527_j26474178412982_2_alg».proof.Proof.LibDotCols
import proofs.«180527_j26474178412982_2_alg».proof.Proof.LibDotRows
import proofs.«180527_j26474178412982_2_alg».proof.Proof.LibHostMax
import proofs.«180527_j26474178412982_2_alg».proof.Proof.LibLaneRows
import proofs.«180527_j26474178412982_2_alg».proof.Proof.LibColumns
import Idealize.ShloMosaic.Lib.Pipeline.Value
import Idealize.ShloMosaic.Lib.ValueLayout

noncomputable section

open scoped BigOperators

namespace Cert.KernelIdeal.Pay

open Idealize.ShloMosaic Idealize.ShloMosaic.ValueIdx Cert.KernelIdeal Cert.KernelIdeal.Gen

/-- The projection body at (r, c): row r of the input block against column c of the weight block, plus the bias of column c. -/
theorem kv_pay (x0 : Vec Ideal S512x1024 .f32) (x1 : Vec Ideal S1024x2048 .bf16) (x2 : Vec Ideal S1x2048 .f32)
    (r : Fin 512) (c : Fin 2048) :
    k0_pay1 x0 x1 x2 (ix2 r c) = (∑ i : Fin 1024, x0 (ix2 r i) * x1 (ix2 i c)) + x2 (ix2 (0 : Fin 1) c) := by
  unfold k0_pay1
  rw [truncf_apply, addf_apply, broadcastTo_1b_ab_apply, shapeCast_self, shapeCast_self, shapeCast_self]
  refine congrArg₂ (· + ·) ?_ rfl
  exact Cert.Lib.DotCols.matmul_cols_apply _ rfl none _ _ r c

/-- The query row s of the attention body: a linear layer of the input block's row s. -/
def qrow (x0 : Vec Ideal S1x256x1024 .f32) (x1 : Vec Ideal S1024x1024 .bf16) (x2 : Vec Ideal S1x1024 .f32)
    (s : Fin 256) (h : Fin 1024) : EReal :=
  (∑ i : Fin 1024, x0 (ix3 (0 : Fin 1) s i) * x1 (ix2 i h)) + x2 (ix2 (0 : Fin 1) h)

/-- The softmax chain of the attention body read at (s, t), for any array `Z` of scaled scores: the lane maximum of row s kept as a
    column and broadcast back, the exponentials of the differences, their lane sum kept as a column and broadcast back, the quotient. -/
theorem softmax_chain (Z : FVec Ideal S256x2048 .f32)
    (hr : S256x2048.Reduces [1] S256) (hφ : FKind.Formats .f32)
    (hmx : (0xFF800000#32 : BitVec FTy.f32.bits) = FKind.maximumf.neutral .f32 hφ)
    (had : (0x00000000#32 : BitVec FTy.f32.bits) = FKind.add.neutral .f32 hφ)
    (hsc : S256.ShapeCasts S256x1) (hbr : S256x1.Broadcasts S256x2048) (s : Fin 256) (t : Fin 2048) :
    divf (exp (subf Z (broadcastTo S256x2048 (shapeCast S256x1 (multiReduction (F := Ideal) .maximumf [1] S256 Z 0xFF800000#32 hr hφ hmx) hsc) hbr)))
      (broadcastTo S256x2048 (shapeCast S256x1 (multiReduction (F := Ideal) .add [1] S256
          (exp (subf Z (broadcastTo S256x2048 (shapeCast S256x1 (multiReduction (F := Ideal) .maximumf [1] S256 Z 0xFF800000#32 hr hφ hmx) hsc) hbr)))
          0x00000000#32 hr hφ had) hsc) hbr) (ix2 s t)
      = Attn.softmax (fun u => Z (ix2 s u)) t := by
  have hmax : ∀ u : Fin 2048,
      broadcastTo S256x2048 (shapeCast S256x1 (multiReduction (F := Ideal) .maximumf [1] S256 Z 0xFF800000#32 hr hφ hmx) hsc) hbr (ix2 s u)
        = (Finset.univ : Finset (Fin 2048)).sup fun k => Z (ix2 s k) := fun u => by
    rw [broadcastTo_a1_ab_apply, shapeCast_a_a1_apply]
    exact HostMax.multiReduction_rows Z hr hφ hmx s
  have hexp : ∀ u : Fin 2048,
      exp (subf Z (broadcastTo S256x2048 (shapeCast S256x1 (multiReduction (F := Ideal) .maximumf [1] S256 Z 0xFF800000#32 hr hφ hmx) hsc) hbr)) (ix2 s u)
        = Ideal.exp (Z (ix2 s u) - (Finset.univ : Finset (Fin 2048)).sup fun k => Z (ix2 s k)) := fun u => by
    show Ideal.exp (subf Z _ (ix2 s u)) = _
    rw [subf_apply, hmax]
  rw [divf_apply, hexp, broadcastTo_a1_ab_apply, shapeCast_a_a1_apply]
  unfold Attn.softmax
  refine congrArg (Ideal.div _) ?_
  refine (LaneRows.multiReduction_add_rows _ _ hr hφ had s).trans ?_
  exact Finset.sum_congr rfl fun u _ => hexp u

/-- The scaled score array at (s, u): the inner product of row s of the left operand and row u of the right, times the scale. -/
theorem score_entry (Q : FVec Ideal S256x1024 .bf16) (K : FVec Ideal S2048x1024 .bf16) (s : Fin 256) (u : Fin 2048) :
    mulf (matmul dot_S256x1024_S2048x1024_S256x2048_1_1_0_0_n_n none Q K (constant S256x2048 .f32 0x00000000#32))
        (broadcast S256x2048 (Scalar.ofBits .f32 0x3D000000#32 : Ideal .f32)) (ix2 s u)
      = Attn.score Attn.scaleK (fun h => Q (ix2 s h)) (fun h => K (ix2 u h)) := by
  rw [mulf_apply, broadcast_apply]
  unfold Attn.score Attn.scaleK
  refine congrArg₂ (· * ·) ?_ rfl
  exact Cert.Lib.DotRows.matmul_rows_apply _ rfl none Q K s u

/-- The query block at (s, h): the linear layer of the input block's row s. -/
theorem query_entry (x0 : Vec Ideal S1x256x1024 .f32) (x1 : Vec Ideal S1024x1024 .bf16) (x2 : Vec Ideal S1x1024 .f32)
    (h0 : S1x256x1024.ShapeCasts S256x1024) (h1 : S1024x1024.ShapeCasts S1024x1024) (h2 : S1x1024.ShapeCasts S1x1024)
    (hb : S1x1024.Broadcasts S256x1024) (hlt : FTy.bits .bf16 < FTy.bits .f32) (s : Fin 256) (h : Fin 1024) :
    (truncf .bf16 (addf (matmul dot_S256x1024_S1024x1024_S256x1024_1_0_0_1_n_n none
          (truncf .bf16 (shapeCast S256x1024 x0 h0 : FVec Ideal S256x1024 .f32) hlt : FVec Ideal S256x1024 .bf16)
          (shapeCast S1024x1024 x1 h1 : FVec Ideal S1024x1024 .bf16) (constant S256x1024 .f32 0x00000000#32) : FVec Ideal S256x1024 .f32)
        (broadcastTo S256x1024 (shapeCast S1x1024 x2 h2 : FVec Ideal S1x1024 .f32) hb)) hlt : FVec Ideal S256x1024 .bf16) (ix2 s h)
      = qrow x0 x1 x2 s h := by
  rw [truncf_apply, addf_apply, broadcastTo_1b_ab_apply, shapeCast_self, shapeCast_self]
  unfold qrow
  refine congrArg₂ (· + ·) ?_ rfl
  refine (Cert.Lib.DotCols.matmul_cols_apply (φ₁ := .bf16) (φ₂ := .bf16) _ rfl none _ _ s h).trans ?_
  refine Finset.sum_congr rfl fun i _ => ?_
  rw [truncf_apply, shapeCast_1ab_ab_apply]

/-- The attention body's weight matrix at (s, t): the softmax along row s of the scaled scores against the key block's rows. -/
theorem weights_pay (x0 : Vec Ideal S1x256x1024 .f32) (x1 : Vec Ideal S1024x1024 .bf16) (x2 : Vec Ideal S1x1024 .f32)
    (x3 : Vec Ideal S1x2048x1024 .bf16) (s : Fin 256) (t : Fin 2048) :
    k1_pay2 x0 x1 x2 x3 (ix2 s t)
      = Attn.softmax (fun u => Attn.score Attn.scaleK (qrow x0 x1 x2 s) (fun h => x3 (ix3 (0 : Fin 1) u h))) t := by
  unfold k1_pay2
  refine (softmax_chain _ _ _ _ _ _ _ s t).trans ?_
  refine congrArg (fun z => Attn.softmax z t) (funext fun u => ?_)
  refine (score_entry _ _ s u).trans ?_
  refine congrArg₂ (Attn.score Attn.scaleK) (funext fun h => ?_) (funext fun h => ?_)
  · exact query_entry x0 x1 x2 _ _ _ _ _ s h
  · exact shapeCast_1ab_ab_apply _ _ u h

/-- The stored weight block is the weight matrix with a leading unit axis. -/
theorem weights_block_pay (x0 : Vec Ideal S1x256x1024 .f32) (x1 : Vec Ideal S1024x1024 .bf16) (x2 : Vec Ideal S1x1024 .f32)
    (x3 : Vec Ideal S1x2048x1024 .bf16) (s : Fin 256) (t : Fin 2048) :
    k1_pay3 x0 x1 x2 x3 (ix3 (0 : Fin 1) s t) = k1_pay2 x0 x1 x2 x3 (ix2 s t) := by
  unfold k1_pay3
  exact shapeCast_ab_1ab_apply _ _ (0 : Fin 1) s t

/-- The stored mixed block at (s, h): the weight matrix's row s against column h of the value block. -/
theorem mixed_block_pay (x0 : Vec Ideal S1x256x1024 .f32) (x1 : Vec Ideal S1024x1024 .bf16) (x2 : Vec Ideal S1x1024 .f32)
    (x3 x4 : Vec Ideal S1x2048x1024 .bf16) (s : Fin 256) (h : Fin 1024) :
    k1_pay1 (k1_pay4 x0 x1 x2 x3 x4) (ix3 (0 : Fin 1) s h)
      = ∑ t : Fin 2048, k1_pay2 x0 x1 x2 x3 (ix2 s t) * x4 (ix3 (0 : Fin 1) t h) := by
  unfold k1_pay1 k1_pay4
  rw [shapeCast_ab_1ab_apply]
  refine (Cert.Lib.DotCols.matmul_cols_apply _ rfl none _ _ s h).trans ?_
  refine Finset.sum_congr rfl fun t _ => ?_
  rw [truncf_apply, shapeCast_1ab_ab_apply]

end Cert.KernelIdeal.Pay

end
-- ==== Proof.Region1.lean ====
/-
  The attention region, read as two arrays.

  The region's grid is 4 × 8: point (n, j) stages rows 256·j … 256·j + 255 of batch n of the input, the whole query weight
  array (stored input-feature-major) and bias row, and all 2048 key rows and value rows of batch n; it writes back rows
  256·j … 256·j + 255 of batch n of both results. The body's weight matrix holds at (s, t) the softmax along row s of the
  scaled scores of query row s against the key rows, and its mixed block the weights' combination of the value rows; so each
  block written back is the restriction of ONE function of the five arrays, and the 32 blocks cover both result arrays.
-/
import proofs.«180527_j26474178412982_2_alg».proof.Proof.Gen.KernelIdeal.Frame
import proofs.«180527_j26474178412982_2_alg».proof.Proof.Payloads
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Att

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The query at batch n, row s, feature h, from the input, the query weights stored input-feature-major, and the bias row. -/
def qAt (X : S4x2048x1024.Idx → EReal) (Wt : S1024x1024.Idx → EReal) (b : S1x1024.Idx → EReal)
    (n : Fin 4) (s : Fin 2048) (h : Fin 1024) : EReal :=
  (∑ i : Fin 1024, X (ix3 n s i) * Wt (ix2 i h)) + b (ix2 (0 : Fin 1) h)

/-- The attention weight of key row t for query row s of batch n, as the kernel groups it. -/
def wAt (X : S4x2048x1024.Idx → EReal) (Wt : S1024x1024.Idx → EReal) (b : S1x1024.Idx → EReal) (Kk : S4x2048x1024.Idx → EReal)
    (n : Fin 4) (s t : Fin 2048) : EReal :=
  Attn.softmax (fun u => Attn.score Attn.scaleK (qAt X Wt b n s) (fun h => Kk (ix3 n u h))) t

/-- The array of attention weights. -/
def wts (X : S4x2048x1024.Idx → EReal) (Wt : S1024x1024.Idx → EReal) (b : S1x1024.Idx → EReal) (Kk : S4x2048x1024.Idx → EReal) :
    S4x2048x2048.Idx → EReal := fun i => wAt X Wt b Kk (i 0) (i 1) (i 2)

/-- The array of mixed rows. -/
def mix (X : S4x2048x1024.Idx → EReal) (Wt : S1024x1024.Idx → EReal) (b : S1x1024.Idx → EReal) (Kk Vv : S4x2048x1024.Idx → EReal) :
    S4x2048x1024.Idx → EReal := fun i => ∑ t : Fin 2048, wAt X Wt b Kk (i 0) (i 1) t * Vv (ix3 (i 0) t (i 2))

theorem wts_ix3 (X : S4x2048x1024.Idx → EReal) (Wt : S1024x1024.Idx → EReal) (b : S1x1024.Idx → EReal) (Kk : S4x2048x1024.Idx → EReal)
    (n : Fin 4) (s t : Fin 2048) : wts X Wt b Kk (ix3 n s t) = wAt X Wt b Kk n s t := rfl
theorem mix_ix3 (X : S4x2048x1024.Idx → EReal) (Wt : S1024x1024.Idx → EReal) (b : S1x1024.Idx → EReal) (Kk Vv : S4x2048x1024.Idx → EReal)
    (n : Fin 4) (s : Fin 2048) (h : Fin 1024) :
    mix X Wt b Kk Vv (ix3 n s h) = ∑ t : Fin 2048, wAt X Wt b Kk n s t * Vv (ix3 n t h) := rfl

/-- The printed index maps over the grid: point t is (t / 8, t % 8); the input rows and both results move with it, the keys and
    values with its batch only, the query weights and bias stay. -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val / 8 ∧ win1_3.index t (1 : Fin 3) = 0 ∧ win1_3.index t (2 : Fin 3) = 0
    ∧ win1_4.index t (0 : Fin 3) = t.val / 8 ∧ win1_4.index t (1 : Fin 3) = 0 ∧ win1_4.index t (2 : Fin 3) = 0
    ∧ win1_5.index t (0 : Fin 3) = t.val / 8 ∧ win1_5.index t (1 : Fin 3) = t.val % 8 ∧ win1_5.index t (2 : Fin 3) = 0
    ∧ win1_6.index t (0 : Fin 3) = t.val / 8 ∧ win1_6.index t (1 : Fin 3) = t.val % 8 ∧ win1_6.index t (2 : Fin 3) = 0 :=
  (by decide +kernel : ∀ t : Fin grid1.N, _)

/-- The staged input block at point t is rows 256·(t % 8) … of batch t / 8. -/
theorem blk_x (c : Dev nD) (t : Fin cfg1.N) (y : S1x256x1024.Idx) (k : S4x2048x1024.Idx)
    (h0 : (k 0).val = t.val / 8) (h1 : (k 1).val = 256 * (t.val % 8) + (y 1).val) (h2 : (k 2).val = (y 2).val) :
    (iblk1 V c 0 t : Vec Ideal S1x256x1024 .f32) y = (V c main_arg0 : S4x2048x1024.Idx → Elt Ideal .f32) k := by
  obtain ⟨e0, e1, e2, -⟩ := idx_facts t
  have hy0 : (y 0).val < 1 := (y 0).isLt
  unfold iblk1
  rw [View.read_apply]
  show V c main_arg0 _ = V c main_arg0 _
  congr 1
  funext a
  apply Fin.ext
  match a with
  | ⟨0, _⟩ => show win1_0.index t 0 * 1 + 1 * (y 0).val = (k 0).val; rw [e0, h0]; omega
  | ⟨1, _⟩ => show win1_0.index t 1 * 256 + 1 * (y 1).val = (k 1).val; rw [e1, h1]; omega
  | ⟨2, _⟩ => show win1_0.index t 2 * 1024 + 1 * (y 2).val = (k 2).val; rw [e2, h2]; omega

/-- The staged query weights are the whole array. -/
theorem blk_wq (c : Dev nD) (t : Fin cfg1.N) (y : S1024x1024.Idx) :
    (iblk1 V c 1 t : Vec Ideal S1024x1024 .bf16) y = (V c main_v2 : S1024x1024.Idx → Elt Ideal .bf16) y := by
  obtain ⟨-, -, -, e0, e1, -⟩ := idx_facts t
  unfold iblk1
  rw [View.read_apply]
  show V c main_v2 _ = V c main_v2 _
  congr 1
  funext a
  apply Fin.ext
  match a with
  | ⟨0, _⟩ => show win1_1.index t 0 * 1024 + 1 * (y 0).val = (y 0).val; rw [e0]; omega
  | ⟨1, _⟩ => show win1_1.index t 1 * 1024 + 1 * (y 1).val = (y 1).val; rw [e1]; omega

/-- The staged query bias is the whole row. -/
theorem blk_bq (c : Dev nD) (t : Fin cfg1.N) (y : S1x1024.Idx) :
    (iblk1 V c 2 t : Vec Ideal S1x1024 .f32) y = (V c main_v3 : S1x1024.Idx → Elt Ideal .f32) y := by
  obtain ⟨-, -, -, -, -, e0, e1, -⟩ := idx_facts t
  unfold iblk1
  rw [View.read_apply]
  show V c main_v3 _ = V c main_v3 _
  congr 1
  funext a
  apply Fin.ext
  match a with
  | ⟨0, _⟩ => show win1_2.index t 0 * 1 + 1 * (y 0).val = (y 0).val; rw [e0]; omega
  | ⟨1, _⟩ => show win1_2.index t 1 * 1024 + 1 * (y 1).val = (y 1).val; rw [e1]; omega

/-- The staged keys at point t are all rows of batch t / 8. -/
theorem blk_k (c : Dev nD) (t : Fin cfg1.N) (y : S1x2048x1024.Idx) (k : S4x2048x1024.Idx)
    (h0 : (k 0).val = t.val / 8) (h1 : (k 1).val = (y 1).val) (h2 : (k 2).val = (y 2).val) :
    (iblk1 V c 3 t : Vec Ideal S1x2048x1024 .bf16) y = (V c main_v13 : S4x2048x1024.Idx → Elt Ideal .bf16) k := by
  obtain ⟨-, -, -, -, -, -, -, e0, e1, e2, -⟩ := idx_facts t
  have hy0 : (y 0).val < 1 := (y 0).isLt
  unfold iblk1
  rw [View.read_apply]
  show V c main_v13 _ = V c main_v13 _
  congr 1
  funext a
  apply Fin.ext
  match a with
  | ⟨0, _⟩ => show win1_3.index t 0 * 1 + 1 * (y 0).val = (k 0).val; rw [e0, h0]; omega
  | ⟨1, _⟩ => show win1_3.index t 1 * 2048 + 1 * (y 1).val = (k 1).val; rw [e1, h1]; omega
  | ⟨2, _⟩ => show win1_3.index t 2 * 1024 + 1 * (y 2).val = (k 2).val; rw [e2, h2]; omega

/-- The staged values at point t are all rows of batch t / 8. -/
theorem blk_v (c : Dev nD) (t : Fin cfg1.N) (y : S1x2048x1024.Idx) (k : S4x2048x1024.Idx)
    (h0 : (k 0).val = t.val / 8) (h1 : (k 1).val = (y 1).val) (h2 : (k 2).val = (y 2).val) :
    (iblk1 V c 4 t : Vec Ideal S1x2048x1024 .bf16) y = (V c main_v14 : S4x2048x1024.Idx → Elt Ideal .bf16) k := by
  obtain ⟨-, -, -, -, -, -, -, -, -, -, e0, e1, e2, -⟩ := idx_facts t
  have hy0 : (y 0).val < 1 := (y 0).isLt
  unfold iblk1
  rw [View.read_apply]
  show V c main_v14 _ = V c main_v14 _
  congr 1
  funext a
  apply Fin.ext
  match a with
  | ⟨0, _⟩ => show win1_4.index t 0 * 1 + 1 * (y 0).val = (k 0).val; rw [e0, h0]; omega
  | ⟨1, _⟩ => show win1_4.index t 1 * 2048 + 1 * (y 1).val = (k 1).val; rw [e1, h1]; omega
  | ⟨2, _⟩ => show win1_4.index t 2 * 1024 + 1 * (y 2).val = (k 2).val; rw [e2, h2]; omega

/-- The query row s' of point t's block is the query row of the whole array it stands for. -/
theorem qrow_eq (c : Dev nD) (t : Fin cfg1.N) (s' : Fin 256) (n : Fin 4) (S : Fin 2048)
    (hn : n.val = t.val / 8) (hS : S.val = 256 * (t.val % 8) + s'.val) :
    Pay.qrow (iblk1 V c 0 t) (iblk1 V c 1 t) (iblk1 V c 2 t) s' = qAt (V c main_arg0) (V c main_v2) (V c main_v3) n S := by
  funext h
  unfold Pay.qrow qAt
  refine congrArg₂ (· + ·) (Finset.sum_congr rfl fun i _ => ?_) (blk_bq V c t (ix2 (0 : Fin 1) h))
  exact congrArg₂ (· * ·) (blk_x V c t (ix3 (0 : Fin 1) s' i) (ix3 n S i) hn hS rfl) (blk_wq V c t (ix2 i h))

/-- The body's weight matrix at (s', u) of point t's block is the attention weight at the entry of the whole array it stands for. -/
theorem weight_at (c : Dev nD) (t : Fin cfg1.N) (s' : Fin 256) (u : Fin 2048) (n : Fin 4) (S : Fin 2048)
    (hn : n.val = t.val / 8) (hS : S.val = 256 * (t.val % 8) + s'.val) :
    (k1_pay2 (iblk1 V c 0 t) (iblk1 V c 1 t) (iblk1 V c 2 t) (iblk1 V c 3 t) : Vec Ideal S256x2048 .f32) (ix2 s' u)
      = wAt (V c main_arg0) (V c main_v2) (V c main_v3) (V c main_v13) n S u := by
  refine (Pay.weights_pay (iblk1 V c 0 t) (iblk1 V c 1 t) (iblk1 V c 2 t) (iblk1 V c 3 t) s' u).trans ?_
  unfold wAt
  refine congrArg (fun z => Attn.softmax z u) (funext fun w => ?_)
  exact congrArg₂ (Attn.score Attn.scaleK) (qrow_eq V c t s' n S hn hS)
    (funext fun h => blk_k V c t (ix3 (0 : Fin 1) w h) (ix3 n w h) hn rfl rfl)

/-- The stored weight block at entry y is the weights array at the entry of the whole array y stands for. -/
theorem wts_at (c : Dev nD) (t : Fin cfg1.N) (y : S1x256x2048.Idx) (k : S4x2048x2048.Idx)
    (h0 : (k 0).val = t.val / 8) (h1 : (k 1).val = 256 * (t.val % 8) + (y 1).val) (h2 : (k 2).val = (y 2).val) :
    (k1_pay3 (iblk1 V c 0 t) (iblk1 V c 1 t) (iblk1 V c 2 t) (iblk1 V c 3 t) : Vec Ideal S1x256x2048 .f32) y
      = wts (V c main_arg0) (V c main_v2) (V c main_v3) (V c main_v13) k := by
  obtain ⟨z, s', u, rfl⟩ : ∃ (z : Fin 1) (s' : Fin 256) (u : Fin 2048), y = ix3 z s' u := ⟨y 0, y 1, y 2, eq_ix3 y⟩
  obtain ⟨n, S, U, rfl⟩ : ∃ (n : Fin 4) (S U : Fin 2048), k = ix3 n S U := ⟨k 0, k 1, k 2, eq_ix3 k⟩
  obtain rfl : z = 0 := Subsingleton.elim _ _
  have hn : n.val = t.val / 8 := h0
  have hS : S.val = 256 * (t.val % 8) + s'.val := h1
  obtain rfl : U = u := Fin.ext h2
  rw [wts_ix3]
  exact (Pay.weights_block_pay (iblk1 V c 0 t) (iblk1 V c 1 t) (iblk1 V c 2 t) (iblk1 V c 3 t) s' U).trans
    (weight_at V c t s' U n S hn hS)

/-- The stored mixed block at entry y is the mixed array at the entry of the whole array y stands for. -/
theorem mix_at (c : Dev nD) (t : Fin cfg1.N) (y : S1x256x1024.Idx) (k : S4x2048x1024.Idx)
    (h0 : (k 0).val = t.val / 8) (h1 : (k 1).val = 256 * (t.val % 8) + (y 1).val) (h2 : (k 2).val = (y 2).val) :
    (k1_pay1 (k1_pay4 (iblk1 V c 0 t) (iblk1 V c 1 t) (iblk1 V c 2 t) (iblk1 V c 3 t) (iblk1 V c 4 t)) : Vec Ideal S1x256x1024 .f32) y
      = mix (V c main_arg0) (V c main_v2) (V c main_v3) (V c main_v13) (V c main_v14) k := by
  obtain ⟨z, s', h, rfl⟩ : ∃ (z : Fin 1) (s' : Fin 256) (h : Fin 1024), y = ix3 z s' h := ⟨y 0, y 1, y 2, eq_ix3 y⟩
  obtain ⟨n, S, H, rfl⟩ : ∃ (n : Fin 4) (S : Fin 2048) (H : Fin 1024), k = ix3 n S H := ⟨k 0, k 1, k 2, eq_ix3 k⟩
  obtain rfl : z = 0 := Subsingleton.elim _ _
  have hn : n.val = t.val / 8 := h0
  have hS : S.val = 256 * (t.val % 8) + s'.val := h1
  obtain rfl : H = h := Fin.ext h2
  rw [mix_ix3]
  refine (Pay.mixed_block_pay (iblk1 V c 0 t) (iblk1 V c 1 t) (iblk1 V c 2 t) (iblk1 V c 3 t) (iblk1 V c 4 t) s' H).trans ?_
  refine Finset.sum_congr rfl fun u _ => ?_
  exact congrArg₂ (· * ·) (weight_at V c t s' u n S hn hS) (blk_v V c t (ix3 (0 : Fin 1) u H) (ix3 n u H) hn rfl rfl)

/-- What point t writes back to the weights array is block t of `wts` of the arrays as the region finds them. -/
theorem flushed_wts (c : Dev nD) (t : Fin cfg1.N) :
    (dat1 V c).flushed 6 t
      = ((cfg1.win 6).blk t).view.read (Elt Ideal) (wts (V c main_arg0) (V c main_v2) (V c main_v3) (V c main_v13)) := by
  show (cfg1.win 6).cut (grid1.coords t) ((dat1 V c).after 6 t) = _
  rw [after1_6]
  unfold out1_6
  rw [View.canon_unit_zero hz3]
  simp only [View.ld_unit_zero (S := S1x256x1024) hz3, View.ld_unit_zero (S := S1024x1024) hz2, View.ld_unit_zero (S := S1x1024) hz2,
    View.ld_unit_zero (S := S1x2048x1024) hz3]
  obtain ⟨-, -, -, -, -, -, -, -, -, -, -, -, -, -, -, -, e0, e1, e2⟩ := idx_facts t
  funext j
  show (k1_pay3 (iblk1 V c 0 t) (iblk1 V c 1 t) (iblk1 V c 2 t) (iblk1 V c 3 t) : Vec Ideal S1x256x2048 .f32) j
    = wts (V c main_arg0) (V c main_v2) (V c main_v3) (V c main_v13) (((cfg1.win 6).blk t).view.emb j)
  have hj0 : (j 0).val < 1 := (j 0).isLt
  refine wts_at V c t j _ ?_ ?_ ?_
  · show win1_6.index t 0 * 1 + 1 * (j 0).val = t.val / 8; rw [e0]; omega
  · show win1_6.index t 1 * 256 + 1 * (j 1).val = 256 * (t.val % 8) + (j 1).val; rw [e1]; omega
  · show win1_6.index t 2 * 2048 + 1 * (j 2).val = (j 2).val; rw [e2]; omega

/-- What point t writes back to the mixed array is block t of `mix` of the arrays as the region finds them. -/
theorem flushed_mix (c : Dev nD) (t : Fin cfg1.N) :
    (dat1 V c).flushed 5 t
      = ((cfg1.win 5).blk t).view.read (Elt Ideal) (mix (V c main_arg0) (V c main_v2) (V c main_v3) (V c main_v13) (V c main_v14)) := by
  show (cfg1.win 5).cut (grid1.coords t) ((dat1 V c).after 5 t) = _
  rw [after1_5]
  unfold out1_5
  rw [View.canon_unit_zero hz3]
  simp only [View.ld_unit_zero (S := S1x256x1024) hz3, View.ld_unit_zero (S := S1024x1024) hz2, View.ld_unit_zero (S := S1x1024) hz2,
    View.ld_unit_zero (S := S1x2048x1024) hz3]
  obtain ⟨-, -, -, -, -, -, -, -, -, -, -, -, -, e0, e1, e2, -⟩ := idx_facts t
  funext j
  show (k1_pay1 (k1_pay4 (iblk1 V c 0 t) (iblk1 V c 1 t) (iblk1 V c 2 t) (iblk1 V c 3 t) (iblk1 V c 4 t)) : Vec Ideal S1x256x1024 .f32) j
    = mix (V c main_arg0) (V c main_v2) (V c main_v3) (V c main_v13) (V c main_v14) (((cfg1.win 5).blk t).view.emb j)
  have hj0 : (j 0).val < 1 := (j 0).isLt
  refine mix_at V c t j _ ?_ ?_ ?_
  · show win1_5.index t 0 * 1 + 1 * (j 0).val = t.val / 8; rw [e0]; omega
  · show win1_5.index t 1 * 256 + 1 * (j 1).val = 256 * (t.val % 8) + (j 1).val; rw [e1]; omega
  · show win1_5.index t 2 * 1024 + 1 * (j 2).val = (j 2).val; rw [e2]; omega

/-- An index of the weights array is in point t's block iff each coordinate is in the block's range on its axis. -/
theorem mem_blk_wts (t : Fin cfg1.N) (i : S4x2048x2048.Idx) :
    i ∈ ((cfg1.win 6).blk t).view.set ↔ ∀ a : Fin 3, win1_6.index t a * S1x256x2048.size a ≤ (i a).val
      ∧ (i a).val < win1_6.index t a * S1x256x2048.size a + S1x256x2048.size a := by
  show i ∈ ((View.whole main_v15_1).slice (win1_6.rect t)).set ↔ _
  rw [View.set_slice_whole, Rect.mem_set_unit]
  exact Iff.rfl

/-- An index of the mixed array is in point t's block iff each coordinate is in the block's range on its axis. -/
theorem mem_blk_mix (t : Fin cfg1.N) (i : S4x2048x1024.Idx) :
    i ∈ ((cfg1.win 5).blk t).view.set ↔ ∀ a : Fin 3, win1_5.index t a * S1x256x1024.size a ≤ (i a).val
      ∧ (i a).val < win1_5.index t a * S1x256x1024.size a + S1x256x1024.size a := by
  show i ∈ ((View.whole main_v15_0).slice (win1_5.rect t)).set ↔ _
  rw [View.set_slice_whole, Rect.mem_set_unit]
  exact Iff.rfl

/-- Every entry of the weights array lies in the block of the point (its batch, the 256-row band its row falls in). -/
theorem cover_wts (i : S4x2048x2048.Idx) :
    ∃ t : Fin cfg1.N, (cfg1.win 6).flush t = true ∧ i ∈ ((cfg1.win 6).blk t).view.set := by
  have hi0 : (i 0).val < 4 := (i 0).isLt
  have hi1 : (i 1).val < 2048 := (i 1).isLt
  have hi2 : (i 2).val < 2048 := (i 2).isLt
  have hN : cfg1.N = 32 := N_1
  have ht : (i 0).val * 8 + (i 1).val / 256 < cfg1.N := by rw [hN]; omega
  refine ⟨⟨(i 0).val * 8 + (i 1).val / 256, ht⟩, flush1_6 _, ?_⟩
  rw [mem_blk_wts]
  obtain ⟨-, -, -, -, -, -, -, -, -, -, -, -, -, -, -, -, e0, e1, e2⟩ := idx_facts ⟨(i 0).val * 8 + (i 1).val / 256, ht⟩
  intro a
  match a with
  | ⟨0, _⟩ =>
    show win1_6.index _ 0 * 1 ≤ (i 0).val ∧ (i 0).val < win1_6.index _ 0 * 1 + 1
    rw [e0]; show ((i 0).val * 8 + (i 1).val / 256) / 8 * 1 ≤ (i 0).val ∧ (i 0).val < ((i 0).val * 8 + (i 1).val / 256) / 8 * 1 + 1; omega
  | ⟨1, _⟩ =>
    show win1_6.index _ 1 * 256 ≤ (i 1).val ∧ (i 1).val < win1_6.index _ 1 * 256 + 256
    rw [e1]; show ((i 0).val * 8 + (i 1).val / 256) % 8 * 256 ≤ (i 1).val ∧ (i 1).val < ((i 0).val * 8 + (i 1).val / 256) % 8 * 256 + 256; omega
  | ⟨2, _⟩ =>
    show win1_6.index _ 2 * 2048 ≤ (i 2).val ∧ (i 2).val < win1_6.index _ 2 * 2048 + 2048
    rw [e2]; omega

/-- Every entry of the mixed array lies in the block of the point (its batch, the 256-row band its row falls in). -/
theorem cover_mix (i : S4x2048x1024.Idx) :
    ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  have hN : cfg1.N = 32 := N_1
  have ht : (i 0).val * 8 + (i 1).val / 256 < cfg1.N := by rw [hN]; omega
  refine ⟨⟨(i 0).val * 8 + (i 1).val / 256, ht⟩, flush1_5 _, ?_⟩
  rw [mem_blk_mix]
  obtain ⟨-, -, -, -, -, -, -, -, -, -, -, -, -, e0, e1, e2, -⟩ := idx_facts ⟨(i 0).val * 8 + (i 1).val / 256, ht⟩
  intro a
  match a with
  | ⟨0, _⟩ =>
    show win1_5.index _ 0 * 1 ≤ (i 0).val ∧ (i 0).val < win1_5.index _ 0 * 1 + 1
    rw [e0]; show ((i 0).val * 8 + (i 1).val / 256) / 8 * 1 ≤ (i 0).val ∧ (i 0).val < ((i 0).val * 8 + (i 1).val / 256) / 8 * 1 + 1; omega
  | ⟨1, _⟩ =>
    show win1_5.index _ 1 * 256 ≤ (i 1).val ∧ (i 1).val < win1_5.index _ 1 * 256 + 256
    rw [e1]; show ((i 0).val * 8 + (i 1).val / 256) % 8 * 256 ≤ (i 1).val ∧ (i 1).val < ((i 0).val * 8 + (i 1).val / 256) % 8 * 256 + 256; omega
  | ⟨2, _⟩ =>
    show win1_5.index _ 2 * 1024 ≤ (i 2).val ∧ (i 2).val < win1_5.index _ 2 * 1024 + 1024
    rw [e2]; omega

/-- After the region the weights array holds `wts` of the arrays as the region found them. -/
theorem final_wts (c : Dev nD) :
    (dat1 V c).arrAt 6 cfg1.N = wts (V c main_arg0) (V c main_v2) (V c main_v3) (V c main_v13) :=
  (dat1 V c).arrAt_eq_of_cover 6 (wts (V c main_arg0) (V c main_v2) (V c main_v3) (V c main_v13)) (fun t _ => flushed_wts V c t) cover_wts

/-- After the region the mixed array holds `mix` of the arrays as the region found them. -/
theorem final_mix (c : Dev nD) :
    (dat1 V c).arrAt 5 cfg1.N = mix (V c main_arg0) (V c main_v2) (V c main_v3) (V c main_v13) (V c main_v14) :=
  (dat1 V c).arrAt_eq_of_cover 5 (mix (V c main_arg0) (V c main_v2) (V c main_v3) (V c main_v13) (V c main_v14))
    (fun t _ => flushed_mix V c t) cover_mix

end Cert.KernelIdeal.Att

end
-- ==== Proof.Region0.lean ====
/-
  The key/value projection region, read as one array.

  The region's grid has 16 points; point t stages rows 512·t … 512·t + 511 of the flattened input, the whole fused weight
  array and the whole bias row, and writes back rows 512·t … 512·t + 511 of the result. The body holds at (r, c) the inner
  product of the staged row r with weight column c plus the bias of column c, so the block written back at t is the
  restriction to those rows of ONE function of the three arrays: entry (R, c) is the inner product of row R of the input with
  column c of the weights, plus the bias of column c. The sixteen row blocks cover all 8192 rows.
-/
import proofs.«180527_j26474178412982_2_alg».proof.Proof.Gen.KernelIdeal.Frame
import proofs.«180527_j26474178412982_2_alg».proof.Proof.Payloads
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The projection as one array: entry (R, c) is row R of the input against column c of the weights, plus the bias of column c. -/
def proj (X : S8192x1024.Idx → EReal) (W : S1024x2048.Idx → EReal) (b : S1x2048.Idx → EReal) : S8192x2048.Idx → EReal :=
  fun i => (∑ k : Fin 1024, X (ix2 (i 0) k) * W (ix2 k (i 1))) + b (ix2 (0 : Fin 1) (i 1))

theorem proj_ix2 (X : S8192x1024.Idx → EReal) (W : S1024x2048.Idx → EReal) (b : S1x2048.Idx → EReal) (R : Fin 8192) (C : Fin 2048) :
    proj X W b (ix2 R C) = (∑ k : Fin 1024, X (ix2 R k) * W (ix2 k C)) + b (ix2 (0 : Fin 1) C) := rfl

/-- The printed index maps over the grid: the input and the result move by row blocks, the weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The staged input block at point t is rows 512·t … of the flattened input. -/
theorem blk_input (c : Dev nD) (t : Fin cfg0.N) (y : S512x1024.Idx) (k : S8192x1024.Idx)
    (h0 : (k 0).val = 512 * t.val + (y 0).val) (h1 : (k 1).val = (y 1).val) :
    (iblk0 V c 0 t : Vec Ideal S512x1024 .f32) y = (V c main_v0 : S8192x1024.Idx → Elt Ideal .f32) k := by
  obtain ⟨e0, e1, -⟩ := idx_facts t
  unfold iblk0
  rw [View.read_apply]
  show V c main_v0 _ = V c main_v0 _
  congr 1
  funext a
  apply Fin.ext
  match a with
  | ⟨0, _⟩ => show win0_0.index t 0 * 512 + 1 * (y 0).val = (k 0).val; rw [e0, h0]; omega
  | ⟨1, _⟩ => show win0_0.index t 1 * 1024 + 1 * (y 1).val = (k 1).val; rw [e1, h1]; omega

/-- The staged weight block is the whole weight array. -/
theorem blk_weights (c : Dev nD) (t : Fin cfg0.N) (y : S1024x2048.Idx) :
    (iblk0 V c 1 t : Vec Ideal S1024x2048 .bf16) y = (V c main_v7 : S1024x2048.Idx → Elt Ideal .bf16) y := by
  obtain ⟨-, -, e0, e1, -⟩ := idx_facts t
  unfold iblk0
  rw [View.read_apply]
  show V c main_v7 _ = V c main_v7 _
  congr 1
  funext a
  apply Fin.ext
  match a with
  | ⟨0, _⟩ => show win0_1.index t 0 * 1024 + 1 * (y 0).val = (y 0).val; rw [e0]; omega
  | ⟨1, _⟩ => show win0_1.index t 1 * 2048 + 1 * (y 1).val = (y 1).val; rw [e1]; omega

/-- The staged bias block is the whole bias row. -/
theorem blk_bias (c : Dev nD) (t : Fin cfg0.N) (y : S1x2048.Idx) :
    (iblk0 V c 2 t : Vec Ideal S1x2048 .f32) y = (V c main_v9 : S1x2048.Idx → Elt Ideal .f32) y := by
  obtain ⟨-, -, -, -, e0, e1, -⟩ := idx_facts t
  unfold iblk0
  rw [View.read_apply]
  show V c main_v9 _ = V c main_v9 _
  congr 1
  funext a
  apply Fin.ext
  match a with
  | ⟨0, _⟩ => show win0_2.index t 0 * 1 + 1 * (y 0).val = (y 0).val; rw [e0]; omega
  | ⟨1, _⟩ => show win0_2.index t 1 * 2048 + 1 * (y 1).val = (y 1).val; rw [e1]; omega

/-- The body's result at entry y of point t's block is the projection at the entry of the whole array that y stands for. -/
theorem pay_at (c : Dev nD) (t : Fin cfg0.N) (y : S512x2048.Idx) (k : S8192x2048.Idx)
    (h0 : (k 0).val = 512 * t.val + (y 0).val) (h1 : (k 1).val = (y 1).val) :
    (k0_pay1 (iblk0 V c 0 t) (iblk0 V c 1 t) (iblk0 V c 2 t) : Vec Ideal S512x2048 .bf16) y
      = proj (V c main_v0) (V c main_v7) (V c main_v9) k := by
  obtain ⟨r, q, rfl⟩ : ∃ (r : Fin 512) (q : Fin 2048), y = ix2 r q := ⟨y 0, y 1, eq_ix2 y⟩
  obtain ⟨R, C, rfl⟩ : ∃ (R : Fin 8192) (C : Fin 2048), k = ix2 R C := ⟨k 0, k 1, eq_ix2 k⟩
  have h0' : R.val = 512 * t.val + r.val := h0
  obtain rfl : C = q := Fin.ext h1
  refine (Pay.kv_pay (iblk0 V c 0 t) (iblk0 V c 1 t) (iblk0 V c 2 t) r C).trans ?_
  rw [proj_ix2]
  refine congrArg₂ (· + ·) (Finset.sum_congr rfl fun i _ => ?_) (blk_bias V c t (ix2 (0 : Fin 1) C))
  exact congrArg₂ (· * ·) (blk_input V c t (ix2 r i) (ix2 R i) h0' rfl) (blk_weights V c t (ix2 i C))

/-- What point t writes back is block t of the projection of the arrays as the region finds them. -/
theorem flushed_eq (c : Dev nD) (t : Fin cfg0.N) :
    (dat0 V c).flushed 3 t
      = ((cfg0.win 3).blk t).view.read (Elt Ideal) (proj (V c main_v0) (V c main_v7) (V c main_v9)) := by
  show (cfg0.win 3).cut (grid0.coords t) ((dat0 V c).after 3 t) = _
  rw [after0_3]
  unfold out0_3
  rw [View.canon_unit_zero hz2]
  simp only [View.ld_unit_zero (S := S512x1024) hz2, View.ld_unit_zero (S := S1024x2048) hz2, View.ld_unit_zero (S := S1x2048) hz2]
  obtain ⟨-, -, -, -, -, -, e0, e1⟩ := idx_facts t
  funext j
  show (k0_pay1 (iblk0 V c 0 t) (iblk0 V c 1 t) (iblk0 V c 2 t) : Vec Ideal S512x2048 .bf16) j
    = proj (V c main_v0) (V c main_v7) (V c main_v9) (((cfg0.win 3).blk t).view.emb j)
  refine pay_at V c t j _ ?_ ?_
  · show win0_3.index t 0 * 512 + 1 * (j 0).val = 512 * t.val + (j 0).val; rw [e0]; omega
  · show win0_3.index t 1 * 2048 + 1 * (j 1).val = (j 1).val; rw [e1]; omega

/-- An index of the result array is in point t's block iff each coordinate is in the block's range on its axis. -/
theorem mem_blk (t : Fin cfg0.N) (i : S8192x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v10).slice (win0_3.rect t)).set ↔ _
  rw [View.set_slice_whole, Rect.mem_set_unit]
  exact Iff.rfl

/-- Every entry of the result array lies in the block of the point its row falls in. -/
theorem cover (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  have hN : cfg0.N = 16 := N_0
  refine ⟨⟨(i 0).val / 512, by rw [hN]; omega⟩, flush0_3 _, ?_⟩
  rw [mem_blk]
  obtain ⟨-, -, -, -, -, -, e0, e1⟩ := idx_facts ⟨(i 0).val / 512, by rw [hN]; omega⟩
  intro a
  match a with
  | ⟨0, _⟩ =>
    show win0_3.index _ 0 * 512 ≤ (i 0).val ∧ (i 0).val < win0_3.index _ 0 * 512 + 512
    rw [e0]; show (i 0).val / 512 * 512 ≤ (i 0).val ∧ (i 0).val < (i 0).val / 512 * 512 + 512; omega
  | ⟨1, _⟩ =>
    show win0_3.index _ 1 * 2048 ≤ (i 1).val ∧ (i 1).val < win0_3.index _ 1 * 2048 + 2048
    rw [e1]; omega

/-- After the region the result array holds the projection of the arrays as the region found them. -/
theorem final (c : Dev nD) : (dat0 V c).arrAt 3 cfg0.N = proj (V c main_v0) (V c main_v7) (V c main_v9) :=
  (dat0 V c).arrAt_eq_of_cover 3 (proj (V c main_v0) (V c main_v7) (V c main_v9)) (fun t _ => flushed_eq V c t) cover

end Cert.KernelIdeal.KV

end
-- ==== Proof.HostGlue.lean ====
/-
  What the attention region finds when it is entered, in terms of the launch arguments.

  Before the first region the host flattens the input to 8192 rows, transposes the three weight arrays, sets the key and value
  weights side by side as one 1024 × 2048 array and the two biases end to end as one row of 2048. The first region leaves the
  projection of these; the host then cuts its left and right halves out and folds each back into 4 batches of 2048 rows. So
  entry (n, t, h) of the keys is row 2048·n + t of the flattened input against column h of the fused weights — row h of the key
  weights — plus the key bias at h: the key layer at (n, t, h); the values likewise from the right half. The query weights
  arrive transposed, the query bias as a row, the input untouched.
-/
import proofs.«180527_j26474178412982_2_alg».proof.Proof.Gen.KernelIdeal.Frame
import proofs.«180527_j26474178412982_2_alg».proof.Proof.AttnSpec
import proofs.«180527_j26474178412982_2_alg».proof.Proof.Region0
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx

namespace Cert.KernelIdeal.Glue

open Cert.KernelIdeal Cert.KernelIdeal.Gen

variable (m : (ℓ : Loc nD τ sig) → Buf (Elt Ideal) ℓ) (ρ : Dev nD → PrngReg)

/-! ### The host's layout operations read at an index -/

section Layout
variable {α : Type}

/-- Four batches of 2048 rows flattened to 8192 rows: row 2048·n + t of the flat array is row t of batch n. -/
theorem flat_rows (X : S4x2048x1024.Idx → α) (hc : S4x2048x1024.ShapeCasts S8192x1024) (n : Fin 4) (t : Fin 2048)
    (k : Fin 1024) (R : Fin 8192) (hR : R.val = 2048 * n.val + t.val) :
    shapeCast S8192x1024 X hc (ix2 R k) = X (ix3 n t k) := by
  refine shapeCast_apply X hc (ix2 R k) (ix3 n t k) ?_
  rw [Shape.rowMajor_val_three, Shape.rowMajor_val_two]
  show (n.val * 2048 + t.val) * 1024 + k.val = R.val * 1024 + k.val
  omega

/-- 8192 rows folded back into four batches of 2048: row t of batch n is row 2048·n + t of the flat array. -/
theorem fold_rows (Y : S8192x1024.Idx → α) (hc : S8192x1024.ShapeCasts S4x2048x1024) (n : Fin 4) (t : Fin 2048)
    (k : Fin 1024) (R : Fin 8192) (hR : R.val = 2048 * n.val + t.val) :
    shapeCast S4x2048x1024 Y hc (ix3 n t k) = Y (ix2 R k) := by
  refine shapeCast_apply Y hc (ix3 n t k) (ix2 R k) ?_
  rw [Shape.rowMajor_val_three, Shape.rowMajor_val_two]
  show R.val * 1024 + k.val = (n.val * 2048 + t.val) * 1024 + k.val
  omega

/-- The left half of an 8192 × 2048 array: column k of the half is column k of the whole. -/
theorem slice_left (Z : S8192x2048.Idx → α) (hs : S8192x2048.Slices ![0, 0] S8192x1024) (R : Fin 8192) (k : Fin 1024)
    (C : Fin 2048) (hC : C.val = k.val) : extractStridedSlice S8192x1024 ![0, 0] Z hs (ix2 R k) = Z (ix2 R C) := by
  refine extractStridedSlice_apply ![0, 0] Z hs (ix2 R k) (ix2 R C) fun a => ?_
  match a with
  | ⟨0, _⟩ => show R.val = 0 + R.val; omega
  | ⟨1, _⟩ => show C.val = 0 + k.val; omega

/-- The right half of an 8192 × 2048 array: column k of the half is column 1024 + k of the whole. -/
theorem slice_right (Z : S8192x2048.Idx → α) (hs : S8192x2048.Slices ![0, 1024] S8192x1024) (R : Fin 8192) (k : Fin 1024)
    (C : Fin 2048) (hC : C.val = 1024 + k.val) : extractStridedSlice S8192x1024 ![0, 1024] Z hs (ix2 R k) = Z (ix2 R C) := by
  refine extractStridedSlice_apply ![0, 1024] Z hs (ix2 R k) (ix2 R C) fun a => ?_
  match a with
  | ⟨0, _⟩ => show R.val = 0 + R.val; omega
  | ⟨1, _⟩ => show C.val = 1024 + k.val; exact hC

/-- The transpose of a square array at (i, j) is the array at (j, i). -/
theorem transpose_at (A : S1024x1024.Idx → α) (ht : S1024x1024.Transposes [1, 0] S1024x1024) (i j : Fin 1024) :
    transpose S1024x1024 [1, 0] A ht (ix2 i j) = A (ix2 j i) := by
  refine transpose_apply [1, 0] A ht (ix2 i j) (ix2 j i) fun b => ?_
  match b with
  | ⟨0, _⟩ => rfl
  | ⟨1, _⟩ => rfl

/-- Two square arrays side by side: a column below 1024 of the join is that column of the first. -/
theorem cat_cols_left (A B : S1024x1024.Idx → α)
    (hc : Shape.Concatenates [S1024x1024, S1024x1024] S1024x2048 (1 : Fin 2)) (k h : Fin 1024) (C : Fin 2048)
    (hC : C.val = h.val) :
    concatenate S1024x2048 (1 : Fin 2) [⟨S1024x1024, A⟩, ⟨S1024x1024, B⟩] hc (ix2 k C) = A (ix2 k h) := by
  refine concatenate_pair_apply_left (1 : Fin 2) A B hc (ix2 k C) rfl (ix2 k h) fun b => ?_
  match b with
  | ⟨0, _⟩ => rfl
  | ⟨1, _⟩ => exact hC.symm

/-- Two square arrays side by side: column 1024 + h of the join is column h of the second. -/
theorem cat_cols_right (A B : S1024x1024.Idx → α)
    (hc : Shape.Concatenates [S1024x1024, S1024x1024] S1024x2048 (1 : Fin 2)) (k h : Fin 1024) (C : Fin 2048)
    (hC : C.val = 1024 + h.val) :
    concatenate S1024x2048 (1 : Fin 2) [⟨S1024x1024, A⟩, ⟨S1024x1024, B⟩] hc (ix2 k C) = B (ix2 k h) := by
  refine concatenate_pair_apply_right (1 : Fin 2) A B hc (ix2 k C) rfl rfl (ix2 k h) (fun b hb => ?_) ?_
  · fin_cases b
    · rfl
    · exact absurd rfl hb
  · show h.val + 1024 = C.val
    omega

/-- Two vectors of 1024 end to end: an entry below 1024 of the join is that entry of the first. -/
theorem cat_vec_left (a b : S1024.Idx → α) (hc : Shape.Concatenates [S1024, S1024] S2048 (0 : Fin 1)) (h : Fin 1024)
    (C : Fin 2048) (hC : C.val = h.val) :
    concatenate S2048 (0 : Fin 1) [⟨S1024, a⟩, ⟨S1024, b⟩] hc (ix1 C) = a (ix1 h) := by
  refine concatenate_pair_apply_left (0 : Fin 1) a b hc (ix1 C) rfl (ix1 h) fun d => ?_
  match d with
  | ⟨0, _⟩ => exact hC.symm

/-- Two vectors of 1024 end to end: entry 1024 + h of the join is entry h of the second. -/
theorem cat_vec_right (a b : S1024.Idx → α) (hc : Shape.Concatenates [S1024, S1024] S2048 (0 : Fin 1)) (h : Fin 1024)
    (C : Fin 2048) (hC : C.val = 1024 + h.val) :
    concatenate S2048 (0 : Fin 1) [⟨S1024, a⟩, ⟨S1024, b⟩] hc (ix1 C) = b (ix1 h) := by
  refine concatenate_pair_apply_right (0 : Fin 1) a b hc (ix1 C) rfl rfl (ix1 h) (fun d hd => ?_) ?_
  · fin_cases d
    exact absurd rfl hd
  · show h.val + 1024 = C.val
    omega

/-- A vector of w entries set as one row: entry (0, C) of the row is entry C of the vector. -/
theorem row_of_vec {w : Nat} (v : (⟨1, ![w]⟩ : Shape).Idx → α) (hc : (⟨1, ![w]⟩ : Shape).ShapeCasts (⟨2, ![1, w]⟩ : Shape))
    (C : Fin w) : shapeCast (⟨2, ![1, w]⟩ : Shape) v hc (ix2 (0 : Fin 1) C) = v (ix1 C) := by
  refine shapeCast_apply v hc (ix2 (0 : Fin 1) C) (ix1 C) ?_
  rw [Shape.rowMajor_val_one, Shape.rowMajor_val_two]
  show C.val = 0 * w + C.val
  omega

end Layout

/-! ### Each buffer at the region's entry as a term of the launch arguments -/

/-- The keys' buffer: the left half of the first region's result, folded into batches. -/
theorem v3_v13 (c : Dev nD) : (V3 m ρ c main_v13 : S4x2048x1024.Idx → EReal)
    = shapeCast S4x2048x1024 (extractStridedSlice S8192x1024 ![0, 0]
        (W2 m ρ c (Proc.devRef .tc main_v10) : S8192x2048.Idx → EReal) slices_S8192x2048_S8192x1024_0_0)
        shapeCasts_S8192x1024_S4x2048x1024 := by
  show StableHlo.after hostOps1 (W2 m ρ c) (Proc.devRef .tc main_v13) = _
  after_results
  rfl

/-- The values' buffer: the right half of the first region's result, folded into batches. -/
theorem v3_v14 (c : Dev nD) : (V3 m ρ c main_v14 : S4x2048x1024.Idx → EReal)
    = shapeCast S4x2048x1024 (extractStridedSlice S8192x1024 ![0, 1024]
        (W2 m ρ c (Proc.devRef .tc main_v10) : S8192x2048.Idx → EReal) slices_S8192x2048_S8192x1024_0_1024)
        shapeCasts_S8192x1024_S4x2048x1024 := by
  show StableHlo.after hostOps1 (W2 m ρ c) (Proc.devRef .tc main_v14) = _
  after_results
  rfl

/-- The first region's result array is the projection of what that region found. -/
theorem w2_v10 (c : Dev nD) : (W2 m ρ c (Proc.devRef .tc main_v10) : S8192x2048.Idx → EReal)
    = KV.proj (V1 m ρ c main_v0) (V1 m ρ c main_v7) (V1 m ρ c main_v9) :=
  (W2_arr m ρ c 3).trans (KV.final (V1 m ρ) c)

/-- The first region finds the input flattened. -/
theorem v1_v0 (c : Dev nD) : (V1 m ρ c main_v0 : S8192x1024.Idx → EReal)
    = shapeCast S8192x1024 (m ((c : Thread nD τ).loc main_arg0) : S4x2048x1024.Idx → EReal)
        shapeCasts_S4x2048x1024_S8192x1024 := by
  show StableHlo.after hostOps0 (W0 m ρ c) (Proc.devRef .tc main_v0) = _
  after_results
  rfl

/-- The first region finds the key and value weights transposed and set side by side. -/
theorem v1_v7 (c : Dev nD) : (V1 m ρ c main_v7 : S1024x2048.Idx → EReal)
    = concatenate S1024x2048 (1 : Fin 2)
        [⟨S1024x1024, transpose S1024x1024 [1, 0] (m ((c : Thread nD τ).loc main_arg3) : S1024x1024.Idx → EReal)
            transposes_S1024x1024_S1024x1024_1_0⟩,
         ⟨S1024x1024, transpose S1024x1024 [1, 0] (m ((c : Thread nD τ).loc main_arg5) : S1024x1024.Idx → EReal)
            transposes_S1024x1024_S1024x1024_1_0⟩]
        concatenates_S1024x1024_S1024x1024_S1024x2048_d1 := by
  show StableHlo.after hostOps0 (W0 m ρ c) (Proc.devRef .tc main_v7) = _
  after_results
  rfl

/-- The first region finds the key and value biases end to end, as one row. -/
theorem v1_v9 (c : Dev nD) : (V1 m ρ c main_v9 : S1x2048.Idx → EReal)
    = shapeCast S1x2048 (concatenate S2048 (0 : Fin 1)
        [⟨S1024, (m ((c : Thread nD τ).loc main_arg4) : S1024.Idx → EReal)⟩,
         ⟨S1024, (m ((c : Thread nD τ).loc main_arg6) : S1024.Idx → EReal)⟩]
        concatenates_S1024_S1024_S2048_d0) shapeCasts_S2048_S1x2048 := by
  show StableHlo.after hostOps0 (W0 m ρ c) (Proc.devRef .tc main_v9) = _
  after_results
  rfl

/-- The query weights' buffer: the launch argument transposed (the narrowing of the format is the identity here). -/
theorem v3_v2 (c : Dev nD) : (V3 m ρ c main_v2 : S1024x1024.Idx → EReal)
    = transpose S1024x1024 [1, 0] (m ((c : Thread nD τ).loc main_arg1) : S1024x1024.Idx → EReal)
        transposes_S1024x1024_S1024x1024_1_0 := by
  show StableHlo.after hostOps1 (W2 m ρ c) (Proc.devRef .tc main_v2) = _
  after_results
  refine (W2_of_ne m ρ c main_v2 (by decide)).trans ?_
  show StableHlo.after hostOps0 (W0 m ρ c) (Proc.devRef .tc main_v2) = _
  after_results
  rfl

/-- The query bias's buffer: the launch argument as one row. -/
theorem v3_v3 (c : Dev nD) : (V3 m ρ c main_v3 : S1x1024.Idx → EReal)
    = shapeCast S1x1024 (m ((c : Thread nD τ).loc main_arg2) : S1024.Idx → EReal) shapeCasts_S1024_S1x1024 := by
  show StableHlo.after hostOps1 (W2 m ρ c) (Proc.devRef .tc main_v3) = _
  after_results
  refine (W2_of_ne m ρ c main_v3 (by decide)).trans ?_
  show StableHlo.after hostOps0 (W0 m ρ c) (Proc.devRef .tc main_v3) = _
  after_results
  rfl

/-- The attention region finds the input as launched. -/
theorem entry_x (c : Dev nD) : V3 m ρ c main_arg0 = m ((c : Thread nD τ).loc main_arg0) := by
  show StableHlo.after hostOps1 (W2 m ρ c) (Proc.devRef .tc main_arg0) = _
  after_results
  refine (W2_of_ne m ρ c main_arg0 (by decide)).trans ?_
  show StableHlo.after hostOps0 (W0 m ρ c) (Proc.devRef .tc main_arg0) = _
  after_results

/-- The attention region finds the query weights transposed. -/
theorem entry_wq (c : Dev nD) (i h : Fin 1024) :
    (V3 m ρ c main_v2 : S1024x1024.Idx → EReal) (ix2 i h)
      = (m ((c : Thread nD τ).loc main_arg1) : S1024x1024.Idx → EReal) (ix2 h i) := by
  exact (congrFun (v3_v2 m ρ c) (ix2 i h)).trans (transpose_at _ _ i h)

/-- The attention region finds the query bias as a row. -/
theorem entry_bq (c : Dev nD) (h : Fin 1024) :
    (V3 m ρ c main_v3 : S1x1024.Idx → EReal) (ix2 (0 : Fin 1) h)
      = (m ((c : Thread nD τ).loc main_arg2) : S1024.Idx → EReal) (ix1 h) := by
  exact (congrFun (v3_v3 m ρ c) (ix2 (0 : Fin 1) h)).trans (row_of_vec _ _ h)

/-- The attention region finds, as its keys, the key layer of the input. -/
theorem entry_keys (c : Dev nD) (n : Fin 4) (t : Fin 2048) (h : Fin 1024) :
    (V3 m ρ c main_v13 : S4x2048x1024.Idx → EReal) (ix3 n t h)
      = Attn.lin (m ((c : Thread nD τ).loc main_arg0)) (m ((c : Thread nD τ).loc main_arg3)) (m ((c : Thread nD τ).loc main_arg4)) n t h := by
  refine (congrFun (v3_v13 m ρ c) (ix3 n t h)).trans ?_
  refine (fold_rows _ _ n t h ⟨2048 * n.val + t.val, by omega⟩ rfl).trans ?_
  refine (slice_left _ _ _ h ⟨h.val, by omega⟩ rfl).trans ?_
  refine (congrFun (w2_v10 m ρ c) _).trans ?_
  refine (KV.proj_ix2 _ _ _ _ _).trans ?_
  unfold Attn.lin
  refine congrArg₂ (· + ·) (Finset.sum_congr rfl fun k _ => congrArg₂ (· * ·) ?_ ?_) ?_
  · exact (congrFun (v1_v0 m ρ c) _).trans (flat_rows _ _ n t k _ rfl)
  · exact (congrFun (v1_v7 m ρ c) _).trans ((cat_cols_left _ _ _ k h _ rfl).trans (transpose_at _ _ k h))
  · exact (congrFun (v1_v9 m ρ c) _).trans ((row_of_vec _ _ _).trans (cat_vec_left _ _ _ h _ rfl))

/-- The attention region finds, as its values, the value layer of the input. -/
theorem entry_values (c : Dev nD) (n : Fin 4) (t : Fin 2048) (h : Fin 1024) :
    (V3 m ρ c main_v14 : S4x2048x1024.Idx → EReal) (ix3 n t h)
      = Attn.lin (m ((c : Thread nD τ).loc main_arg0)) (m ((c : Thread nD τ).loc main_arg5)) (m ((c : Thread nD τ).loc main_arg6)) n t h := by
  refine (congrFun (v3_v14 m ρ c) (ix3 n t h)).trans ?_
  refine (fold_rows _ _ n t h ⟨2048 * n.val + t.val, by omega⟩ rfl).trans ?_
  refine (slice_right _ _ _ h ⟨1024 + h.val, by omega⟩ rfl).trans ?_
  refine (congrFun (w2_v10 m ρ c) _).trans ?_
  refine (KV.proj_ix2 _ _ _ _ _).trans ?_
  unfold Attn.lin
  refine congrArg₂ (· + ·) (Finset.sum_congr rfl fun k _ => congrArg₂ (· * ·) ?_ ?_) ?_
  · exact (congrFun (v1_v0 m ρ c) _).trans (flat_rows _ _ n t k _ rfl)
  · exact (congrFun (v1_v7 m ρ c) _).trans ((cat_cols_right _ _ _ k h _ rfl).trans (transpose_at _ _ k h))
  · exact (congrFun (v1_v9 m ρ c) _).trans ((row_of_vec _ _ _).trans (cat_vec_right _ _ _ h _ rfl))

end Cert.KernelIdeal.Glue

end
-- ==== Proof.Bridge.lean ====
/-
  The kernel's two results are the specification's arrays at the kernel's scale.

  After the attention region the two result arrays are, entry by entry, the softmax weights and the mixed rows computed from what
  the region found at entry. What it found are the input as launched, the query weights transposed with their bias as a row, and
  the key and value layers of the input; with those the kernel's query at (n, s, h) is the query layer, its scores are the scaled
  inner products of query rows and key rows, and its weights and mixed rows are the specification's.
-/
import proofs.«180527_j26474178412982_2_alg».proof.Proof.Region1
import proofs.«180527_j26474178412982_2_alg».proof.Proof.HostGlue

set_option maxRecDepth 16384

noncomputable section

open scoped BigOperators
open Idealize.ShloMosaic Idealize.ShloMosaic.TcCoe Idealize.SL.Sem Idealize.ShloMosaic.ValueIdx

namespace Cert.KernelIdeal.Bridge

open Cert.KernelIdeal Cert.KernelIdeal.Gen

variable (m : (ℓ : Loc nD τ sig) → Buf (Elt Ideal) ℓ) (ρ : Dev nD → PrngReg)

/-- The kernel's query row is the query layer's. -/
theorem query_spec (c : Dev nD) (n : Fin 4) (s : Fin 2048) :
    Att.qAt (V3 m ρ c main_arg0) (V3 m ρ c main_v2) (V3 m ρ c main_v3) n s
      = Attn.lin (m ((c : Thread nD τ).loc main_arg0)) (m ((c : Thread nD τ).loc main_arg1)) (m ((c : Thread nD τ).loc main_arg2)) n s := by
  funext h
  unfold Att.qAt Attn.lin
  refine congrArg₂ (· + ·) (Finset.sum_congr rfl fun i _ => ?_) (Glue.entry_bq m ρ c h)
  refine congrArg₂ (· * ·) ?_ (Glue.entry_wq m ρ c i h)
  rw [Glue.entry_x m ρ c]

/-- The kernel's attention weight is the specification's. -/
theorem weight_spec (c : Dev nD) (n : Fin 4) (s t : Fin 2048) :
    Att.wAt (V3 m ρ c main_arg0) (V3 m ρ c main_v2) (V3 m ρ c main_v3) (V3 m ρ c main_v13) n s t
      = Attn.weights Attn.scaleK
          (Attn.lin (m ((c : Thread nD τ).loc main_arg0)) (m ((c : Thread nD τ).loc main_arg1)) (m ((c : Thread nD τ).loc main_arg2)))
          (Attn.lin (m ((c : Thread nD τ).loc main_arg0)) (m ((c : Thread nD τ).loc main_arg3)) (m ((c : Thread nD τ).loc main_arg4))) n s t := by
  unfold Att.wAt Attn.weights
  refine congrArg (fun z => Attn.softmax z t) (funext fun u => ?_)
  exact congrArg₂ (Attn.score Attn.scaleK) (query_spec m ρ c n s) (funext fun h => Glue.entry_keys m ρ c n u h)

/-- The weights array after the run is the specification's. -/
theorem wts_spec (c : Dev nD) :
    Att.wts (V3 m ρ c main_arg0) (V3 m ρ c main_v2) (V3 m ρ c main_v3) (V3 m ρ c main_v13)
      = Attn.weightsArr Attn.scaleK (m ((c : Thread nD τ).loc main_arg0)) (m ((c : Thread nD τ).loc main_arg1))
          (m ((c : Thread nD τ).loc main_arg2)) (m ((c : Thread nD τ).loc main_arg3)) (m ((c : Thread nD τ).loc main_arg4)) :=
  funext fun i => weight_spec m ρ c (i 0) (i 1) (i 2)

/-- The mixed array after the run is the specification's. -/
theorem mix_spec (c : Dev nD) :
    Att.mix (V3 m ρ c main_arg0) (V3 m ρ c main_v2) (V3 m ρ c main_v3) (V3 m ρ c main_v13) (V3 m ρ c main_v14)
      = Attn.mixedArr Attn.scaleK (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) :=
  funext fun i => Finset.sum_congr rfl fun t _ =>
    congrArg₂ (· * ·) (weight_spec m ρ c (i 0) (i 1) t) (Glue.entry_values m ρ c (i 0) t (i 2))

/-- The mixed rows' buffer at the last boundary. -/
theorem result_mix (c : Dev nD) :
    W4 m ρ c (Proc.devRef .tc main_v15_0)
      = Attn.mixedArr Attn.scaleK (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) :=
  (W4_arr m ρ c 5).trans ((Att.final_mix (V3 m ρ) c).trans (mix_spec m ρ c))

/-- The attention weights' buffer at the last boundary. -/
theorem result_wts (c : Dev nD) :
    W4 m ρ c (Proc.devRef .tc main_v15_1)
      = Attn.weightsArr Attn.scaleK (m ((c : Thread nD τ).loc main_arg0)) (m ((c : Thread nD τ).loc main_arg1))
          (m ((c : Thread nD τ).loc main_arg2)) (m ((c : Thread nD τ).loc main_arg3)) (m ((c : Thread nD τ).loc main_arg4)) :=
  (W4_arr m ρ c 6).trans ((Att.final_wts (V3 m ρ) c).trans (wts_spec m ρ c))

end Cert.KernelIdeal.Bridge

end
-- ==== Proof.RefSide.lean ====
/-
  The reference program's two results, read entry by entry, are the attention weights and the mixed rows of the specification
  at the scale the reference computes (one over the square root of 1024); and that scale is the kernel's 2⁻⁵.

  Each host operation is read at an index from its operands at an index; the three linear layers are inner products of rows,
  the scores an inner product of a query row and a key row of one batch, the row maximum a supremum started from −∞ (a second
  maximum against −∞ changes nothing), the row sum a plain sum started from zero.
-/
import proofs.«180527_j26474178412982_2_alg».proof.Proof.Gen.ReferenceIdeal.Read
import proofs.«180527_j26474178412982_2_alg».proof.Proof.AttnSpec
import proofs.«180527_j26474178412982_2_alg».proof.Proof.LibHostMax

noncomputable section

open scoped BigOperators

namespace Attn

open Idealize.ShloMosaic

/-- The f32 word of 1024 denotes the real 1024. -/
theorem ofBits_1024 : Ideal.ofBits .f32 0x44800000#32 = ((1024 : ℝ) : EReal) := by
  simp [Ideal.ofBits, Ideal.ieee, -EReal.coe_mul]; norm_num

/-- The f32 word of 1 denotes the real 1. -/
theorem ofBits_one : Ideal.ofBits .f32 0x3F800000#32 = ((1 : ℝ) : EReal) := by
  simp [Ideal.ofBits, Ideal.ieee, -EReal.coe_mul]; norm_num

/-- The f32 word of 2⁻⁵ denotes the real 1/32. -/
theorem ofBits_inv32 : Ideal.ofBits .f32 0x3D000000#32 = ((1 / 32 : ℝ) : EReal) := by
  simp [Ideal.ofBits, Ideal.ieee, -EReal.coe_mul]; norm_num

/-- The real square root of 1024 is 32. -/
theorem sqrt_1024 : Real.sqrt 1024 = 32 := by
  rw [show (1024 : ℝ) = 32 ^ 2 by norm_num, Real.sqrt_sq (by norm_num)]

/-- The square root of 1024 is 32, one over 32 is 2⁻⁵: the reference's scale is the kernel's. -/
theorem scale_eq : scaleR = scaleK := by
  unfold scaleR scaleK
  rw [ofBits_1024, ofBits_one, ofBits_inv32, Ideal.sqrt_coe, if_neg (by norm_num), sqrt_1024,
    Ideal.div_coe (by norm_num : (32 : ℝ) ≠ 0), ← EReal.coe_mul, one_mul]

end Attn

namespace Cert.ReferenceIdeal.RefValue

open Idealize.ShloMosaic Idealize.ShloMosaic.ValueIdx Cert.ReferenceIdeal Cert.ReferenceIdeal.Read

/-- A rank-1 index is the one with its coordinate. -/
theorem idx1_eq {n0 : Nat} (j : (⟨1, ![n0]⟩ : Shape).Idx) (a : Fin n0) (h0 : j 0 = a) : j = ix1 a := by
  subst h0; exact eq_ix1 j

/-- A rank-2 index is the one with its two coordinates. -/
theorem idx2_eq {n0 n1 : Nat} (j : (⟨2, ![n0, n1]⟩ : Shape).Idx) (a : Fin n0) (b : Fin n1) (h0 : j 0 = a) (h1 : j 1 = b) :
    j = ix2 a b := by
  subst h0 h1; exact eq_ix2 j

/-- A rank-3 index is the one with its three coordinates. -/
theorem idx3_eq {n0 n1 n2 : Nat} (j : (⟨3, ![n0, n1, n2]⟩ : Shape).Idx) (a : Fin n0) (b : Fin n1) (c : Fin n2)
    (h0 : j 0 = a) (h1 : j 1 = b) (h2 : j 2 = c) : j = ix3 a b c := by
  subst h0 h1 h2; exact eq_ix3 j

/-- A linear layer of the reference (a contraction of the input's last axis with the weight's last axis, plus the bias
    broadcast twice), read at an index, is the specification's layer at the index's coordinates. -/
theorem lin_at (x : (⟨S4x2048x1024, .f32⟩ : BufTy).Contents (Elt Ideal)) (W : (⟨S1024x1024, .f32⟩ : BufTy).Contents (Elt Ideal))
    (b : (⟨S1024, .f32⟩ : BufTy).Contents (Elt Ideal)) (i : S4x2048x1024.Idx) :
    val_main_v3 (F := Ideal) x W b i = Attn.lin x W b (i 0) (i 1) (i 2) := by
  rw [val_main_v3_apply, val_main_v0_apply, val_main_v2_apply, val_main_v1_apply, Ideal.addf_def]
  unfold Attn.lin
  refine congrArg₂ (· + ·) (Finset.sum_congr rfl fun k _ => ?_) ?_
  · exact congrArg₂ (· * ·) (congrArg x (idx3_eq _ _ _ _ rfl rfl rfl)) (congrArg W (idx2_eq _ _ _ rfl rfl))
  · exact congrArg b (idx1_eq _ _ rfl)

/-- The key layer is the same operation on its own parameters. -/
theorem lin_k (x : (⟨S4x2048x1024, .f32⟩ : BufTy).Contents (Elt Ideal)) (W : (⟨S1024x1024, .f32⟩ : BufTy).Contents (Elt Ideal))
    (b : (⟨S1024, .f32⟩ : BufTy).Contents (Elt Ideal)) (i : S4x2048x1024.Idx) :
    val_main_v7 (F := Ideal) x W b i = Attn.lin x W b (i 0) (i 1) (i 2) := lin_at x W b i

/-- The value layer is the same operation on its own parameters. -/
theorem lin_v (x : (⟨S4x2048x1024, .f32⟩ : BufTy).Contents (Elt Ideal)) (W : (⟨S1024x1024, .f32⟩ : BufTy).Contents (Elt Ideal))
    (b : (⟨S1024, .f32⟩ : BufTy).Contents (Elt Ideal)) (i : S4x2048x1024.Idx) :
    val_main_v11 (F := Ideal) x W b i = Attn.lin x W b (i 0) (i 1) (i 2) := lin_at x W b i

/-- The scaled scores, read at (n, s, t): the inner product of query row s and key row t of batch n, times the scale. -/
theorem score_at (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (i : S4x2048x2048.Idx) :
    val_main_v16 (F := Ideal) x0 x1 x2 x3 x4 i
      = Attn.score Attn.scaleR (Attn.lin x0 x1 x2 (i 0) (i 1)) (Attn.lin x0 x3 x4 (i 0) (i 2)) := by
  rw [val_main_v16_apply, val_main_v14_apply, val_main_v15_apply, val_main_v13_apply, val_main_cst_0_apply,
    val_main_v12_apply, val_main_cst_apply, Ideal.mulf_def, Ideal.hostDivf_def, Ideal.hostUnary_sqrt_def, Ideal.ofBits_def,
    Ideal.ofBits_def]
  unfold Attn.score Attn.scaleR
  refine congrArg₂ (· * ·) (Finset.sum_congr rfl fun k _ => ?_) rfl
  exact congrArg₂ (· * ·) (lin_at x0 x1 x2 _) (lin_k x0 x3 x4 _)

/-- The row maximum at (n, s): the supremum of the row's scores. The reduction starts from −∞, and the second maximum
    against −∞ changes nothing. -/
theorem rowmax_at (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (j : S4x2048.Idx) :
    val_main_v19 (F := Ideal) x0 x1 x2 x3 x4 j
      = (Finset.univ : Finset (Fin 2048)).sup fun u =>
          Attn.score Attn.scaleR (Attn.lin x0 x1 x2 (j 0) (j 1)) (Attn.lin x0 x3 x4 (j 0) u) := by
  obtain ⟨n, s, rfl⟩ : ∃ (n : Fin 4) (s : Fin 2048), j = ix2 n s := ⟨j 0, j 1, eq_ix2 j⟩
  rw [val_main_v19_apply, val_main_v18_apply, val_main_cst_2_apply, Ideal.maximumf_def, Ideal.ofBits_def,
    HostMax.ofBits_neg_inf, max_bot_left]
  refine (HostMax.reduce_groups (val_main_v16 (F := Ideal) x0 x1 x2 x3 x4) (val_main_cst_1 (F := Ideal))
    (fun _ => HostMax.ofBits_neg_inf) _ (by decide) _ n s).trans ?_
  exact congrArg (Finset.univ : Finset (Fin 2048)).sup (funext fun u => score_at x0 x1 x2 x3 x4 (ix3 n s u))

/-- The exponential of a score less its row's supremum, read at (n, s, t). -/
theorem exp_at (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (i : S4x2048x2048.Idx) :
    val_main_v23 (F := Ideal) x0 x1 x2 x3 x4 i
      = Ideal.exp (Attn.score Attn.scaleR (Attn.lin x0 x1 x2 (i 0) (i 1)) (Attn.lin x0 x3 x4 (i 0) (i 2))
          - (Finset.univ : Finset (Fin 2048)).sup fun u =>
              Attn.score Attn.scaleR (Attn.lin x0 x1 x2 (i 0) (i 1)) (Attn.lin x0 x3 x4 (i 0) u)) := by
  rw [val_main_v23_apply, val_main_v22_apply, val_main_v21_apply, val_main_v20_apply, Ideal.hostUnary_exp_def,
    Ideal.subf_def]
  exact congrArg Ideal.exp (congrArg₂ (· - ·) (score_at x0 x1 x2 x3 x4 i) (rowmax_at x0 x1 x2 x3 x4 _))

/-- The row sum at (n, s): the sum of the row's exponentials, started from zero. -/
theorem sum_at (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (j : S4x2048.Idx) :
    val_main_v24 (F := Ideal) x0 x1 x2 x3 x4 j
      = ∑ t : Fin 2048, Ideal.exp (Attn.score Attn.scaleR (Attn.lin x0 x1 x2 (j 0) (j 1)) (Attn.lin x0 x3 x4 (j 0) t)
          - (Finset.univ : Finset (Fin 2048)).sup fun u =>
              Attn.score Attn.scaleR (Attn.lin x0 x1 x2 (j 0) (j 1)) (Attn.lin x0 x3 x4 (j 0) u)) := by
  rw [val_main_v24_apply, val_main_cst_3_apply, Ideal.ofBits_def, Ideal.ofBits_zero_f32, zero_add]
  exact Finset.sum_congr rfl fun t _ => exp_at x0 x1 x2 x3 x4 (idx_main_v24 j t)

/-- The weights, read at (n, s, t): the exponential over the row sum, which is the softmax of the row of scores. -/
theorem weights_at (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (i : S4x2048x2048.Idx) :
    val_main_v27 (F := Ideal) x0 x1 x2 x3 x4 i
      = Attn.weights Attn.scaleR (Attn.lin x0 x1 x2) (Attn.lin x0 x3 x4) (i 0) (i 1) (i 2) := by
  rw [val_main_v27_apply, val_main_v26_apply, val_main_v25_apply, Ideal.hostDivf_def]
  exact congrArg₂ Ideal.div (exp_at x0 x1 x2 x3 x4 i) (sum_at x0 x1 x2 x3 x4 _)

/-- The reference's second result is the array of attention weights. -/
theorem ref_weights (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) :
    val_main_v27 (F := Ideal) x0 x1 x2 x3 x4 = Attn.weightsArr Attn.scaleR x0 x1 x2 x3 x4 := by
  funext i
  exact weights_at x0 x1 x2 x3 x4 i

/-- The reference's first result is the array of mixed rows. -/
theorem ref_mixed (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) :
    val_main_v28 (F := Ideal) x0 x1 x2 x3 x4 x5 x6 = Attn.mixedArr Attn.scaleR x0 x1 x2 x3 x4 x5 x6 := by
  funext i
  rw [val_main_v28_apply]
  show _ = ∑ t : Fin 2048, Attn.weights Attn.scaleR (Attn.lin x0 x1 x2) (Attn.lin x0 x3 x4) (i 0) (i 1) t
      * Attn.lin x0 x5 x6 (i 0) t (i 2)
  exact Finset.sum_congr rfl fun t _ => congrArg₂ (· * ·) (weights_at x0 x1 x2 x3 x4 _) (lin_v x0 x5 x6 _)

end Cert.ReferenceIdeal.RefValue

end
-- ==== Proof.lean ====
/-
  Self-attention as two kernel regions against its plain reference, equal over the extended reals.

  Both programs take a batch of 4 sequences of 2048 rows of 1024 features and the weights and biases of three linear layers, and
  return the mixed rows and the attention weights. The reference forms queries, keys and values by three products of the input
  with a transposed weight array plus a bias, the scores as inner products of query and key rows of a batch times
  1 / sqrt 1024, the weights as each row's softmax (the row's maximum subtracted, exponentials, divided by their sum), and the
  mixed rows as the weights' combination of the value rows. The kernel program computes keys and values together, as ONE product
  of the flattened input with the two weight arrays set side by side, in a first region of 16 row blocks, cuts the two halves
  apart on the host, and in a second region over (batch, band of 256 query rows) computes the queries of the band, their scaled
  scores against all keys of the batch (the scale the literal 2⁻⁵), the softmax and the mixed rows. Index by index the two
  programs form the same sums, the same maximum, the same exponentials and the same quotient, in the same grouping: the tiling,
  the fused product, a change of float format, and a matrix unit's product against the host's are no difference over the
  extended reals, and sqrt 1024 = 32 makes the two scales one number. No step distributes, cancels or reorders across a sum, so
  the precondition that the inputs are finite is never opened.

  The kernel's run with its results named is the generated segments' launch read at the result buffers; each region's result
  array is one function of the arrays the region finds, because each block written back is that function restricted to the
  block and the blocks cover the array; what the second region finds is read through the host operations back to the launch
  arguments. The reference's run and its operations read at an index are generated; the idealization rewrote nothing.
-/
import proofs.«180527_j26474178412982_2_alg».proof.Defs
import proofs.«180527_j26474178412982_2_alg».proof.Proof.Gen.Kernel
import proofs.«180527_j26474178412982_2_alg».proof.Proof.Gen.Kernel.Skeleton
import proofs.«180527_j26474178412982_2_alg».proof.Proof.Gen.Kernel.Launch
import proofs.«180527_j26474178412982_2_alg».proof.Proof.Gen.Kernel.Points
import proofs.«180527_j26474178412982_2_alg».proof.Proof.Gen.Kernel.Frame
import proofs.«180527_j26474178412982_2_alg».proof.Proof.Gen.KernelIdeal
import proofs.«180527_j26474178412982_2_alg».proof.Proof.Gen.KernelIdeal.Skeleton
import proofs.«180527_j26474178412982_2_alg».proof.Proof.Gen.KernelIdeal.Launch
import proofs.«180527_j26474178412982_2_alg».proof.Proof.Gen.KernelIdeal.Points
import proofs.«180527_j26474178412982_2_alg».proof.Proof.Gen.KernelIdeal.Frame
import proofs.«180527_j26474178412982_2_alg».proof.Proof.Gen.ReferenceIdeal
import proofs.«180527_j26474178412982_2_alg».proof.Proof.Gen.Pre_finite_inputs
import proofs.«180527_j26474178412982_2_alg».proof.Proof.Gen.ReferenceIdeal.Run
import proofs.«180527_j26474178412982_2_alg».proof.Proof.Gen.ReferenceIdeal.Read
import proofs.«180527_j26474178412982_2_alg».proof.Proof.KernelRun
import proofs.«180527_j26474178412982_2_alg».proof.Proof.Bridge
import proofs.«180527_j26474178412982_2_alg».proof.Proof.RefSide
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the specification's mixed rows and attention weights at
    the scale 2⁻⁵: the kernel's by its regions' arrays, the reference's by its operations read at an index and
    1 / sqrt 1024 = 2⁻⁵. -/
theorem algebraic : Cert.algebraic_KernelIdeal_ReferenceIdeal := by
  intro m ρ m' ρ' _ hagree
  refine ⟨fun c => Attn.mixedArr Attn.scaleK
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)),
      fun c => Attn.weightsArr Attn.scaleK
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Bridge.result_mix m ρ c),
        (h c).2.1.trans (Cert.KernelIdeal.Bridge.result_wts m ρ c), (h c).2.2⟩)
      (Cert.KernelIdeal.Named.run_named (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v28_eq, Cert.ReferenceIdeal.RefValue.ref_mixed, Attn.scale_eq,
        (hagree c).1, (hagree c).2.1, (hagree c).2.2.1, (hagree c).2.2.2.1, (hagree c).2.2.2.2.1, (hagree c).2.2.2.2.2.1,
        (hagree c).2.2.2.2.2.2]
    · rw [Cert.ReferenceIdeal.Read.val_main_v27_eq, Cert.ReferenceIdeal.RefValue.ref_weights, Attn.scale_eq,
        (hagree c).1, (hagree c).2.1, (hagree c).2.2.1, (hagree c).2.2.2.1, (hagree c).2.2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
